-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x64x64 : Shape := ⟨4, ![16, 512, 64, 64]⟩
abbrev S1024x512 : Shape := ⟨2, ![1024, 512]⟩
abbrev S_ : Shape := ⟨0, ![]⟩

class Facts : Prop where
  bcast_S_S16x512x64x64 : S_.BroadcastsInDim S16x512x64x64 (![] : Fin 0 → Fin S16x512x64x64.rank)
  reducesTo_S16x512x64x64_S_d0_1_2_3 : S16x512x64x64.ReducesTo [0, 1, 2, 3] S_
  h_S_ : 0 < S_.numel
  bcast_S_S1024x512 : S_.BroadcastsInDim S1024x512 (![] : Fin 0 → Fin S1024x512.rank)
  reducesTo_S1024x512_S_d0_1 : S1024x512.ReducesTo [0, 1] S_

variable [Facts]

def fn {F : FTy → Type} [FloatOps F] (main_arg0 : FVec F S16x512x64x64 .f32) (main_arg1 : FVec F S1024x512 .f32) : IVec S_ 1 :=
  let main_v0 : FVec F S16x512x64x64 .f32 := Host.absf main_arg0
  let main_cst : FVec F S_ .f32 := constant S_ .f32 0x7F800000#32
  let main_v1 : FVec F S16x512x64x64 .f32 := broadcastInDim S16x512x64x64 ![] bcast_S_S16x512x64x64 main_cst
  let main_v2 : IVec S16x512x64x64 1 := cmpf .olt main_v0 main_v1
  let main_c : IVec S_ 1 := constantI S_ 1 1#1
  let main_v3 : IVec S_ 1 := (fun x v => Host.reduce IntOp.andi x v reducesTo_S16x512x64x64_S_d0_1_2_3 h_S_) main_v2 main_c
  let main_v4 : FVec F S1024x512 .f32 := Host.absf main_arg1
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  main_v8
-- ==== Kernel.lean ====
abbrev S16x512x64x64 : Shape := ⟨4, ![16, 512, 64, 64]⟩
abbrev S1024x512 : Shape := ⟨2, ![1024, 512]⟩
abbrev S16x64x64x512 : Shape := ⟨4, ![16, 64, 64, 512]⟩
abbrev S65536x512 : Shape := ⟨2, ![65536, 512]⟩
abbrev S_ : Shape := ⟨0, ![]⟩
abbrev S1024 : Shape := ⟨1, ![1024]⟩
abbrev S1024x1 : Shape := ⟨2, ![1024, 1]⟩
abbrev S512x1024 : Shape := ⟨2, ![512, 1024]⟩
abbrev S65536 : Shape := ⟨1, ![65536]⟩
abbrev S512x512 : Shape := ⟨2, ![512, 512]⟩
abbrev S512 : Shape := ⟨1, ![512]⟩
abbrev S512x1 : Shape := ⟨2, ![512, 1]⟩
abbrev S16x64x64 : Shape := ⟨3, ![16, 64, 64]⟩

abbrev nBuf : Space → Nat
  | .hbm => 21
  | .vmem => 8
  | .smem => 0
  | _ => 0

abbrev bufTy : (tb : Table) → Fin (tcTables nBuf tb) → BufTy
  | .hbm, ⟨0, _⟩ => ⟨S16x512x64x64, .f32⟩
  | .hbm, ⟨1, _⟩ => ⟨S1024x512, .f32⟩
  | .hbm, ⟨2, _⟩ => ⟨S16x64x64x512, .f32⟩
  | .hbm, ⟨3, _⟩ => ⟨S65536x512, .f32⟩
  | .hbm, ⟨4, _⟩ => ⟨S1024x512, .f32⟩
  | .hbm, ⟨5, _⟩ => ⟨S_, .f32⟩
  | .hbm, ⟨6, _⟩ => ⟨S1024, .f32⟩
  | .hbm, ⟨7, _⟩ => ⟨S1024x1, .f32⟩
  | .hbm, ⟨8, _⟩ => ⟨S1024x1, .f32⟩
  | .hbm, ⟨9, _⟩ => ⟨S_, .f32⟩
  | .hbm, ⟨10, _⟩ => ⟨S1024x1, .f32⟩
  | .hbm, ⟨11, _⟩ => ⟨S1024x1, .f32⟩
  | .hbm, ⟨12, _⟩ => ⟨S1024x512, .f32⟩
  | .hbm, ⟨13, _⟩ => ⟨S1024x512, .f32⟩
  | .hbm, ⟨14, _⟩ => ⟨S1024x512, .bf16⟩
  | .hbm, ⟨15, _⟩ => ⟨S512x1024, .bf16⟩
  | .hbm, ⟨16, _⟩ => ⟨S65536x512, .f32⟩
  | .hbm, ⟨17, _⟩ => ⟨S65536, .f32⟩
  | .hbm, ⟨18, _⟩ => ⟨S16x64x64x512, .f32⟩
  | .hbm, ⟨19, _⟩ => ⟨S16x512x64x64, .f32⟩
  | .hbm, ⟨20, _⟩ => ⟨S16x64x64, .f32⟩
  | .local _ .vmem, ⟨0, _⟩ => ⟨S512x512, .f32⟩
  | .local _ .vmem, ⟨1, _⟩ => ⟨S512x512, .f32⟩
  | .local _ .vmem, ⟨2, _⟩ => ⟨S1024x512, .bf16⟩
  | .local _ .vmem, ⟨3, _⟩ => ⟨S512x1024, .bf16⟩
  | .local _ .vmem, ⟨4, _⟩ => ⟨S512x512, .f32⟩
  | .local _ .vmem, ⟨5, _⟩ => ⟨S512x512, .f32⟩
  | .local _ .vmem, ⟨6, _⟩ => ⟨S512, .f32⟩
  | .local _ .vmem, ⟨7, _⟩ => ⟨S512, .f32⟩
  | _, _ => ⟨S16x512x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S16x512x64x64_S16x64x64x512_0_2_3_1 : S16x512x64x64.Transposes [0, 2, 3, 1] S16x64x64x512
  shapeCasts_S16x64x64x512_S65536x512 : S16x64x64x512.ShapeCasts S65536x512
  reducesTo_S1024x512_S1024_d1 : S1024x512.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x512_0_1 : S1024x1.BroadcastsInDim S1024x512 (![0, 1] : Fin 2 → Fin S1024x512.rank)
  bitsLt_bf16_f32 : FTy.bits .bf16 < FTy.bits .f32
  transposes_S1024x512_S512x1024_1_0 : S1024x512.Transposes [1, 0] S512x1024
  inb_S512x512_S512x512_0_0 : ∀ a, (![0, 0] : Fin 2 → Nat) a + S512x512.size a ≤ S512x512.size a
  h_S512x512 : 0 < S512x512.numel
  shapeCasts_S512x512_S512x512 : S512x512.ShapeCasts S512x512
  reduces_S512x512_S512 : S512x512.Reduces [1] S512
  shapeCasts_S512_S512x1 : S512.ShapeCasts S512x1
  broadcasts_S512x1_S512x512 : S512x1.Broadcasts S512x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  reduces_S512x1024_S512 : S512x1024.Reduces [1] S512
  broadcasts_S512x1_S512x1024 : S512x1.Broadcasts S512x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512_S512_0 : ∀ a, (![0] : Fin 1 → Nat) a + S512.size a ≤ S512.size a
  h_S512 : 0 < S512.numel
  shapeCasts_S65536x512_S16x64x64x512 : S65536x512.ShapeCasts S16x64x64x512
  transposes_S16x64x64x512_S16x512x64x64_0_3_1_2 : S16x64x64x512.Transposes [0, 3, 1, 2] S16x512x64x64
  shapeCasts_S65536_S16x64x64 : S65536.ShapeCasts S16x64x64
  dot_S512x512_S512x1024_S512x1024_1_0_0_1_n_n_wf : DotDims.WF S512x512 S512x1024 S512x1024 [1] [0] [0] [1] [] []
  dot_S512x1024_S1024x512_S512x512_1_0_0_1_n_n_wf : DotDims.WF S512x1024 S1024x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S65536x512.size a
  hwx0_0 : ∀ i : grid0.Coords, EltTy.bits .f32 = 32 ∨ (Rect.block (s := S65536x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x512.size a
  hwx0_1 : ∀ i : grid0.Coords, EltTy.bits .bf16 = 32 ∨ (Rect.block (s := S1024x512) S1024x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S512x1024.size a
  hwx0_2 : ∀ i : grid0.Coords, EltTy.bits .bf16 = 32 ∨ (Rect.block (s := S512x1024) S512x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S65536x512.size a
  hwx0_3 : ∀ i : grid0.Coords, EltTy.bits .f32 = 32 ∨ (Rect.block (s := S65536x512) S512x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S65536.size a
  hwx0_4 : ∀ i : grid0.Coords, EltTy.bits .f32 = 32 ∨ (Rect.block (s := S65536) S512.size (cc0_transform_4 i) (hinb0_4 i)).WholeWords (EltTy.packing .f32)

variable [Facts₀]

def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf

abbrev win0_0 : Pipeline.Window sig grid0 :=
  Pipeline.Window.ofSpec (Memref.whole main_v1) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1024x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S512x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9_0) S512x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9_1) S512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x512x64x64 : Shape := ⟨4, ![16, 512, 64, 64]⟩
abbrev S1024x512 : Shape := ⟨2, ![1024, 512]⟩
abbrev S16x64x64x512 : Shape := ⟨4, ![16, 64, 64, 512]⟩
abbrev S65536x512 : Shape := ⟨2, ![65536, 512]⟩
abbrev S_ : Shape := ⟨0, ![]⟩
abbrev S65536 : Shape := ⟨1, ![65536]⟩
abbrev S65536x1 : Shape := ⟨2, ![65536, 1]⟩
abbrev S1024 : Shape := ⟨1, ![1024]⟩
abbrev S1024x1 : Shape := ⟨2, ![1024, 1]⟩
abbrev S512x1024 : Shape := ⟨2, ![512, 1024]⟩
abbrev S65536x1024 : Shape := ⟨2, ![65536, 1024]⟩
abbrev S16x64x64 : Shape := ⟨3, ![16, 64, 64]⟩

abbrev nBuf : Space → Nat
  | .hbm => 46
  | .vmem => 0
  | .smem => 0
  | _ => 0

abbrev bufTy : (tb : Table) → Fin (tcTables nBuf tb) → BufTy
  | .hbm, ⟨0, _⟩ => ⟨S16x512x64x64, .f32⟩
  | .hbm, ⟨1, _⟩ => ⟨S1024x512, .f32⟩
  | .hbm, ⟨2, _⟩ => ⟨S16x64x64x512, .f32⟩
  | .hbm, ⟨3, _⟩ => ⟨S65536x512, .f32⟩
  | .hbm, ⟨4, _⟩ => ⟨S65536x512, .f32⟩
  | .hbm, ⟨5, _⟩ => ⟨S_, .f32⟩
  | .hbm, ⟨6, _⟩ => ⟨S65536, .f32⟩
  | .hbm, ⟨7, _⟩ => ⟨S65536x1, .f32⟩
  | .hbm, ⟨8, _⟩ => ⟨S65536x1, .f32⟩
  | .hbm, ⟨9, _⟩ => ⟨S_, .f32⟩
  | .hbm, ⟨10, _⟩ => ⟨S65536x1, .f32⟩
  | .hbm, ⟨11, _⟩ => ⟨S65536x1, .f32⟩
  | .hbm, ⟨12, _⟩ => ⟨S65536x512, .f32⟩
  | .hbm, ⟨13, _⟩ => ⟨S65536x512, .f32⟩
  | .hbm, ⟨14, _⟩ => ⟨S1024x512, .f32⟩
  | .hbm, ⟨15, _⟩ => ⟨S_, .f32⟩
  | .hbm, ⟨16, _⟩ => ⟨S1024, .f32⟩
  | .hbm, ⟨17, _⟩ => ⟨S1024x1, .f32⟩
  | .hbm, ⟨18, _⟩ => ⟨S1024x1, .f32⟩
  | .hbm, ⟨19, _⟩ => ⟨S_, .f32⟩
  | .hbm, ⟨20, _⟩ => ⟨S1024x1, .f32⟩
  | .hbm, ⟨21, _⟩ => ⟨S1024x1, .f32⟩
  | .hbm, ⟨22, _⟩ => ⟨S1024x512, .f32⟩
  | .hbm, ⟨23, _⟩ => ⟨S1024x512, .f32⟩
  | .hbm, ⟨24, _⟩ => ⟨S512x1024, .f32⟩
  | .hbm, ⟨25, _⟩ => ⟨S65536x1024, .f32⟩
  | .hbm, ⟨26, _⟩ => ⟨S_, .f32⟩
  | .hbm, ⟨27, _⟩ => ⟨S65536, .f32⟩
  | .hbm, ⟨28, _⟩ => ⟨S_, .f32⟩
  | .hbm, ⟨29, _⟩ => ⟨S65536, .f32⟩
  | .hbm, ⟨30, _⟩ => ⟨S65536, .f32⟩
  | .hbm, ⟨31, _⟩ => ⟨S65536x1, .f32⟩
  | .hbm, ⟨32, _⟩ => ⟨S65536x1024, .f32⟩
  | .hbm, ⟨33, _⟩ => ⟨S65536x1024, .f32⟩
  | .hbm, ⟨34, _⟩ => ⟨S65536x1024, .f32⟩
  | .hbm, ⟨35, _⟩ => ⟨S_, .f32⟩
  | .hbm, ⟨36, _⟩ => ⟨S65536, .f32⟩
  | .hbm, ⟨37, _⟩ => ⟨S65536x1, .f32⟩
  | .hbm, ⟨38, _⟩ => ⟨S65536x1024, .f32⟩
  | .hbm, ⟨39, _⟩ => ⟨S65536x1024, .f32⟩
  | .hbm, ⟨40, _⟩ => ⟨S65536x512, .f32⟩
  | .hbm, ⟨41, _⟩ => ⟨S16x64x64x512, .f32⟩
  | .hbm, ⟨42, _⟩ => ⟨S16x512x64x64, .f32⟩
  | .hbm, ⟨43, _⟩ => ⟨S_, .f32⟩
  | .hbm, ⟨44, _⟩ => ⟨S65536, .f32⟩
  | .hbm, ⟨45, _⟩ => ⟨S16x64x64, .f32⟩
  | _, _ => ⟨S16x512x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call1_v0 : Ref sig .tc := ⟨.hbm, 14, rfl⟩
abbrev main_call1_cst : Ref sig .tc := ⟨.hbm, 15, rfl⟩
abbrev main_call1_v1 : Ref sig .tc := ⟨.hbm, 16, rfl⟩
abbrev main_call1_v2 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩

abbrev nD : Nat := 1
abbrev τ : Topo := Topo.v7x

variable {F : FTy → Type} [FloatOps F]

class Facts₀ : Prop where
  transposes_S16x512x64x64_S16x64x64x512_0_2_3_1 : S16x512x64x64.Transposes [0, 2, 3, 1] S16x64x64x512
  shapeCasts_S16x64x64x512_S65536x512 : S16x64x64x512.ShapeCasts S65536x512
  reducesTo_S65536x512_S65536_d1 : S65536x512.ReducesTo [1] S65536
  h_S_ : 0 < S_.numel
  bcast_S65536_S65536x1_0 : S65536.BroadcastsInDim S65536x1 (![0] : Fin 1 → Fin S65536x1.rank)
  bcast_S_S65536x1 : S_.BroadcastsInDim S65536x1 (![] : Fin 0 → Fin S65536x1.rank)
  bcast_S65536x1_S65536x512_0_1 : S65536x1.BroadcastsInDim S65536x512 (![0, 1] : Fin 2 → Fin S65536x512.rank)
  reducesTo_S1024x512_S1024_d1 : S1024x512.ReducesTo [1] S1024
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x512_0_1 : S1024x1.BroadcastsInDim S1024x512 (![0, 1] : Fin 2 → Fin S1024x512.rank)
  transposes_S1024x512_S512x1024_1_0 : S1024x512.Transposes [1, 0] S512x1024
  reducesTo_S65536x1024_S65536_d1 : S65536x1024.ReducesTo [1] S65536
  bcast_S_S65536 : S_.BroadcastsInDim S65536 (![] : Fin 0 → Fin S65536.rank)
  bcast_S65536x1_S65536x1024_0_1 : S65536x1.BroadcastsInDim S65536x1024 (![0, 1] : Fin 2 → Fin S65536x1024.rank)
  shapeCasts_S65536x512_S16x64x64x512 : S65536x512.ShapeCasts S16x64x64x512
  transposes_S16x64x64x512_S16x512x64x64_0_3_1_2 : S16x64x64x512.Transposes [0, 3, 1, 2] S16x512x64x64
  shapeCasts_S65536_S16x64x64 : S65536.ShapeCasts S16x64x64
  dot_S65536x512_S512x1024_S65536x1024_1_0_0_1_n_n_wf : DotDims.WF S65536x512 S512x1024 S65536x1024 [1] [0] [0] [1] [] []
  dot_S65536x1024_S1024x512_S65536x512_1_0_0_1_n_n_wf : DotDims.WF S65536x1024 S1024x512 S65536x512 [1] [0] [0] [1] [] []

variable [Facts₀]

def dot_S65536x512_S512x1024_S65536x1024_1_0_0_1_n_n : DotDims S65536x512 S512x1024 S65536x1024 where
  lhsContracting := [1]
  rhsContracting := [0]
  lhsNonContracting := [0]
  rhsNonContracting := [1]
  lhsBatch := []
  rhsBatch := []
  wf := dot_S65536x512_S512x1024_S65536x1024_1_0_0_1_n_n_wf
def dot_S65536x1024_S1024x512_S65536x512_1_0_0_1_n_n : DotDims S65536x1024 S1024x512 S65536x512 where
  lhsContracting := [1]
  rhsContracting := [0]
  lhsNonContracting := [0]
  rhsNonContracting := [1]
  lhsBatch := []
  rhsBatch := []
  wf := dot_S65536x1024_S1024x512_S65536x512_1_0_0_1_n_n_wf

class Facts : Prop extends Facts₀ where

variable [Facts]
-- ==== Proof.Spec.lean ====
/-
  Reading a bank of memory rows with one feature row, on the extended reals.

  A feature row x (C numbers) is divided by its Euclidean length, the length kept at least eps; its cosine
  similarities against K memory rows M are the products of that unit row with each M k; the similarities are turned
  into softmax weights (exponentials of the scores less the largest score, divided by their sum); the row read back
  is the weighted sum of the memory rows, and the match value is the largest weight.

  Everything is stated row by row: nothing in one row's result depends on another feature row.  That is the whole
  reason a computation done on blocks of 512 rows and one done on all rows at once are the same function.  The start
  value b of the two maxima and the floor eps of the length are parameters: they are never evaluated, only carried.
-/
import Idealize.ShloMosaic.Lib.ValueIdx
import Idealize.ShloMosaic.PureOps.Ideal.Laws

noncomputable section

namespace Cert.MemBank

open Idealize.ShloMosaic Idealize.ShloMosaic.ValueIdx

variable {N C K : ℕ}

/-- The Euclidean length of a row, kept at least `eps`. -/
def clampNorm (eps : EReal) (x : Fin C → EReal) : EReal := max (Ideal.sqrt (∑ d, x d * x d)) eps

/-- The row divided by its clamped length. -/
def unitRow (eps : EReal) (x : Fin C → EReal) (d : Fin C) : EReal := Ideal.div (x d) (clampNorm eps x)

/-- The unit row's products with each of the `K` memory rows. -/
def simRow (eps : EReal) (x : Fin C → EReal) (M : Fin K → Fin C → EReal) (k : Fin K) : EReal :=
  ∑ d, unitRow eps x d * M k d

/-- The largest of `K` values and the start value `b`. -/
def rowMax (b : EReal) (s : Fin K → EReal) : EReal := (Finset.univ : Finset (Fin K)).fold max b s

/-- The exponential of each score less the largest score. -/
def expRow (b : EReal) (s : Fin K → EReal) (k : Fin K) : EReal := Ideal.exp (s k - rowMax b s)

/-- The softmax weights of `K` scores. -/
def softRow (b : EReal) (s : Fin K → EReal) (k : Fin K) : EReal := Ideal.div (expRow b s k) (∑ k', expRow b s k')

/-- The weights a feature row gives the memory rows. -/
def attnRow (eps b : EReal) (x : Fin C → EReal) (M : Fin K → Fin C → EReal) : Fin K → EReal :=
  softRow b (simRow eps x M)

/-- The weighted sum of the memory rows, at column `d`. -/
def reconRow (eps b : EReal) (x : Fin C → EReal) (M : Fin K → Fin C → EReal) (d : Fin C) : EReal :=
  ∑ k, attnRow eps b x M k * M k d

/-- The largest weight. -/
def matchRow (eps b : EReal) (x : Fin C → EReal) (M : Fin K → Fin C → EReal) : EReal :=
  rowMax b (attnRow eps b x M)

/-- Taking the larger of the start value and a maximum that already started from it changes nothing. -/
theorem max_rowMax (b : EReal) (s : Fin K → EReal) : max b (rowMax b s) = rowMax b s := by
  unfold rowMax
  exact max_eq_right ((Finset.le_fold_max b).2 (Or.inl le_rfl))

/-- Row `r` of a two-axis array. -/
def rowOf {A B : ℕ} (a : (⟨2, ![A, B]⟩ : Shape).Idx → EReal) (r : Fin A) : Fin B → EReal := fun d => a (ix2 r d)

/-- All rows read back: entry `(r, d)` is the read-back of feature row `r` at column `d`. -/
def Recon (eps b : EReal) (feat : (⟨2, ![N, C]⟩ : Shape).Idx → EReal) (mem : (⟨2, ![K, C]⟩ : Shape).Idx → EReal) :
    (⟨2, ![N, C]⟩ : Shape).Idx → EReal :=
  fun i => reconRow eps b (rowOf feat (i 0)) (rowOf mem) (i 1)

/-- All match values: entry `r` is the largest weight of feature row `r`. -/
def Match (eps b : EReal) (feat : (⟨2, ![N, C]⟩ : Shape).Idx → EReal) (mem : (⟨2, ![K, C]⟩ : Shape).Idx → EReal) :
    (⟨1, ![N]⟩ : Shape).Idx → EReal :=
  fun i => matchRow eps b (rowOf feat (i 0)) (rowOf mem)

theorem Recon_apply (eps b : EReal) (feat : (⟨2, ![N, C]⟩ : Shape).Idx → EReal) (mem : (⟨2, ![K, C]⟩ : Shape).Idx → EReal)
    (r : Fin N) (d : Fin C) : Recon eps b feat mem (ix2 r d) = reconRow eps b (rowOf feat r) (rowOf mem) d := rfl

theorem Match_apply (eps b : EReal) (feat : (⟨2, ![N, C]⟩ : Shape).Idx → EReal) (mem : (⟨2, ![K, C]⟩ : Shape).Idx → EReal)
    (r : Fin N) : Match eps b feat mem (ix1 r) = matchRow eps b (rowOf feat r) (rowOf mem) := rfl

end Cert.MemBank

end
-- ==== Proof.LibDot.lean ====
/-
  A matrix product read at an index, on the extended reals.

  For a rows × contraction by contraction × columns product — the dimension numbers that contract the left operand's
  second axis with the right operand's first, with no batch axis — the entry at (i, j) of the host's `dot_general`,
  and of a `tpu.matmul` accumulated into the zero splat, is the plain sum over the contraction coordinate k of
  l (i, k) · r (k, j). The sum over the product's own contraction index is re-indexed through the bijection between a
  one-axis contraction index and its coordinate; the operand indices are computed from the dimension numbers.
  Nothing here needs finiteness: only that the sum is re-indexed.
-/
import Idealize.ShloMosaic.Lib.ValueIdx
import Idealize.ShloMosaic.PureOps.Ideal.Laws

noncomputable section

namespace Cert.LibDot

open Idealize.ShloMosaic Idealize.ShloMosaic.ValueIdx

variable {M K N : Nat}

/-- The contraction of row `y 0` of `l` with column `y 1` of `r`: the sum over the product's contraction index is
    the sum over the one contracted coordinate. -/
theorem sum_plain (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (y : (⟨2, ![M, N]⟩ : Shape).Idx) :
    ∑ q : d.contr.Idx, l (d.lhsIdx y q) * r (d.rhsIdx y q) = ∑ k : Fin K, l (ix2 (y 0) k) * r (ix2 k (y 1)) := by
  obtain ⟨lc, rc, ln, rn, lb, rb, wf⟩ := d
  dsimp only at hlc hrc hln hrn hlb hrb
  subst hlc hrc hln hrn hlb hrb
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : DotDims.lhsIdx (⟨[1], [0], [0], [1], [], [], wf⟩ : DotDims ⟨2, ![M, K]⟩ ⟨2, ![K, N]⟩ ⟨2, ![M, N]⟩) y
      ((contrEquiv1 (⟨[1], [0], [0], [1], [], [], wf⟩ : DotDims ⟨2, ![M, K]⟩ ⟨2, ![K, N]⟩ ⟨2, ![M, N]⟩) K rfl rfl).symm k)
      = ix2 (y 0) k := funext fun a => Fin.ext (by
    match a with
    | ⟨0, _⟩ =>
      unfold DotDims.lhsIdx
      rw [dif_neg (by simp), dif_pos (by simp)]
      rfl
    | ⟨1, _⟩ => exact (DotDims.lhsIdx_val_of_single _ rfl y _).trans hk)
  have er : DotDims.rhsIdx (⟨[1], [0], [0], [1], [], [], wf⟩ : DotDims ⟨2, ![M, K]⟩ ⟨2, ![K, N]⟩ ⟨2, ![M, N]⟩) y
      ((contrEquiv1 (⟨[1], [0], [0], [1], [], [], wf⟩ : DotDims ⟨2, ![M, K]⟩ ⟨2, ![K, N]⟩ ⟨2, ![M, N]⟩) K rfl rfl).symm k)
      = ix2 k (y 1) := funext fun a => Fin.ext (by
    match a with
    | ⟨0, _⟩ => exact (DotDims.rhsIdx_val_of_single _ rfl y _).trans hk
    | ⟨1, _⟩ =>
      unfold DotDims.rhsIdx
      rw [dif_neg (by simp), dif_pos (by simp)]
      rfl)
  rw [el, er]
  rfl

variable {φ₁ φ₂ : FTy}

/-- The host's `dot_general` of those dimension numbers, at an index: the sum over the contracted coordinate. -/
theorem dotGeneral_plain_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (l : FVec Ideal ⟨2, ![M, K]⟩ φ₁) (r : FVec Ideal ⟨2, ![K, N]⟩ φ₂) (y : (⟨2, ![M, N]⟩ : Shape).Idx) :
    FloatOps.dotGeneral d prec sched l r y = ∑ k : Fin K, l (ix2 (y 0) k) * r (ix2 k (y 1)) := by
  rw [Ideal.dotGeneral_apply]
  exact sum_plain d hlc hrc hln hrn hlb hrb l r y

/-- A `tpu.matmul` of those dimension numbers into the zero accumulator, at an index: the same sum. -/
theorem matmul_zero_plain_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (l : FVec Ideal ⟨2, ![M, K]⟩ φ₁) (r : FVec Ideal ⟨2, ![K, N]⟩ φ₂) (y : (⟨2, ![M, N]⟩ : Shape).Idx) :
    FloatOps.matmul d prec l r (constant ⟨2, ![M, N]⟩ .f32 0x00000000#32) y
      = ∑ k : Fin K, l (ix2 (y 0) k) * r (ix2 k (y 1)) := by
  rw [Ideal.matmul_constant_zero_apply]
  exact sum_plain d hlc hrc hln hrn hlb hrb l r y

end Cert.LibDot

end
-- ==== Proof.LibColumn.lean ====
/-
  A column of per-row values laid beside a matrix, read at an index.

  A reduction over a matrix's second axis with the axis kept ("keepdims") leaves one value per row, stored as a
  vector of length a, re-cast as an a × 1 column, and then broadcast across the b columns of the matrix it is
  combined with.  At entry (p, c) each of these re-layings reads the one value of row p: the cast keeps the row-major
  position, and the broadcast reads a unit axis at coordinate 0 whatever the column.
-/
import Idealize.ShloMosaic.Lib.Pipeline.Value
import Idealize.ShloMosaic.Lib.ValueIdx

namespace Cert.LibColumn

open Idealize.ShloMosaic Idealize.ShloMosaic.ValueIdx

variable {α : Type}

/-- A vector of length `a` cast to an `a × 1` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column cast to itself is itself. -/
theorem shapeCast_a1_a1_apply {a : ℕ} (x : (⟨2, ![a, 1]⟩ : Shape).Idx → α) (h : (⟨2, ![a, 1]⟩ : Shape).ShapeCasts ⟨2, ![a, 1]⟩)
    (j : (⟨2, ![a, 1]⟩ : Shape).Idx) : shapeCast ⟨2, ![a, 1]⟩ x h j = x j := by
  rw [shapeCast_self]

/-- An `a × 1` column broadcast across `b` columns reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Cert.LibColumn
-- ==== Proof.LibRows.lean ====
/-
  Rows of a matrix, read at an index, on the extended reals.

  For an a × b matrix v: the sum along the second axis, read at row p, is the sum over k of v (p, k); the maximum
  along the second axis, read at row p, is the fold of max over k of v (p, k) from the start value the accumulator
  word denotes; and one value per row, re-cast as an a × 1 column and laid across c columns ("keepdims", then a
  broadcast), reads at (p, q) the value of row p.  The index of the matrix that a row index with the coordinate k
  put back on the second axis names is (p, k).  All for any extents; nothing is evaluated.
-/
import proofs.«153263_j82025285419168_1_alg».proof.Proof.LibColumn
import Idealize.ShloMosaic.Lib.ValueIdx
import Idealize.ShloMosaic.Lib.Pipeline.Value
import Idealize.ShloMosaic.PureOps.Ideal.Laws

noncomputable section

namespace Cert.LibRows

open Idealize.ShloMosaic Idealize.ShloMosaic.ValueIdx

variable {a b : ℕ}

/-- The index of a matrix over row p with coordinate k put on the second axis is (p, k). -/
theorem lift_row (h : (⟨2, ![a, b]⟩ : Shape).Reduces [1] ⟨1, ![a]⟩) (p : Fin a) (k : Fin b) :
    h.lift (ix1 p) k = ix2 p k := by
  funext c
  match c with
  | ⟨0, _⟩ => exact Fin.ext rfl
  | ⟨1, _⟩ => exact Fin.ext rfl

/-- A sum along the second axis, read at row p: the sum of the row's entries. -/
theorem rowSum_apply {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (lift_row h p k))

/-- A maximum along the second axis, read at row p: the fold of max over the row's entries from the start value. -/
theorem rowMaxf_apply {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ v acc h hφ hacc (ix1 p)
      = (Finset.univ : Finset (Fin b)).fold max (Ideal.ofBits φ acc) (fun k => v (ix2 p k)) :=
  (Ideal.multiReduction_maximumf_single v acc h hφ hacc (ix1 p)).trans
    (Finset.fold_congr fun k _ => congrArg v (lift_row h p k))

/-- One value per row, re-cast as a column and laid across c columns, read at (p, q): the value of row p. -/
theorem column_apply {α : Type} {c : ℕ} (u : (⟨1, ![a]⟩ : Shape).Idx → α)
    (hc : (⟨1, ![a]⟩ : Shape).ShapeCasts ⟨2, ![a, 1]⟩) (hb : (⟨2, ![a, 1]⟩ : Shape).Broadcasts ⟨2, ![a, c]⟩)
    (p : Fin a) (q : Fin c) :
    broadcastTo ⟨2, ![a, c]⟩ (shapeCast ⟨2, ![a, 1]⟩ u hc) hb (ix2 p q) = u (ix1 p) :=
  (Cert.LibColumn.broadcastTo_a1_ab_apply (shapeCast ⟨2, ![a, 1]⟩ u hc) hb p q).trans
    (Cert.LibColumn.shapeCast_a_a1_apply u hc p 0)

end Cert.LibRows

end
-- ==== Proof.PayloadValue.lean ====
/-
  The three values one block of feature rows stores, read at an index.

  For a block of feature rows x (row p, column d) and the memory rows laid out transposed (column k holds memory row k),
  the block computation divides each feature row by its Euclidean length (kept at least eps), multiplies the unit rows
  with the transposed memory, turns each row of products into softmax weights (exponentials of the products less the
  row's largest, divided by the row's sum of them), multiplies the weights with the memory rows, and takes each row's
  largest weight.  Read at an index, the weights are the row-by-row softmax weights of the specification, the second
  product is their weighted sum of the memory rows, and the third value is their maximum.

  The steps that are not entry-by-entry are read first, for any extents: the unit rows and the softmax of rows, over
  the sum and the maximum along a matrix's rows and the one-value-per-row column laid back beside the matrix.  The
  two constants (the floor eps and the start value of the maxima) are carried as terms and never evaluated.
-/
import proofs.«153263_j82025285419168_1_alg».proof.Proof.Gen.KernelIdeal.Skeleton
import proofs.«153263_j82025285419168_1_alg».proof.Proof.Spec
import proofs.«153263_j82025285419168_1_alg».proof.Proof.LibDot
import proofs.«153263_j82025285419168_1_alg».proof.Proof.LibColumn
import proofs.«153263_j82025285419168_1_alg».proof.Proof.LibRows
import Idealize.ShloMosaic.Lib.ValueIdx
import Idealize.ShloMosaic.Lib.Pipeline.Value
import Idealize.ShloMosaic.PureOps.Ideal.Laws

noncomputable section

namespace Cert.KernelIdeal.PayloadValue

open Cert.KernelIdeal Cert.KernelIdeal.Gen Idealize.ShloMosaic Idealize.ShloMosaic.ValueIdx Cert.LibRows

/-! ## Rows of a matrix, for any extents -/

section Rows

variable {a b : ℕ}

/-- Each row of a matrix divided by its Euclidean length kept at least e, read at (p, d): the unit row of row p at d.
    The squares are summed along the row, the sum re-cast as a column, its root taken and floored at e entry by
    entry, and the column laid back across the matrix's columns. -/
theorem unitRows_apply {c : ℕ} (x : FVec Ideal ⟨2, ![a, c]⟩ .f32) (e : Ideal .f32)
    (h : (⟨2, ![a, c]⟩ : Shape).Reduces [1] ⟨1, ![a]⟩) (hc : (⟨1, ![a]⟩ : Shape).ShapeCasts ⟨2, ![a, 1]⟩)
    (hb : (⟨2, ![a, 1]⟩ : Shape).Broadcasts ⟨2, ![a, c]⟩) (hφ : FKind.Formats .f32)
    (h0 : (0x00000000#32 : BitVec (FTy.bits .f32)) = FKind.add.neutral .f32 hφ) (p : Fin a) (d : Fin c) :
    divf x (broadcastTo ⟨2, ![a, c]⟩
        (maximumf (sqrt (shapeCast ⟨2, ![a, 1]⟩ (multiReduction .add [1] ⟨1, ![a]⟩ (mulf x x) 0x00000000#32 h hφ h0) hc))
          (broadcast ⟨2, ![a, 1]⟩ e)) hb) (ix2 p d)
      = Cert.MemBank.unitRow e (fun d => x (ix2 p d)) d := by
  have hn : broadcastTo ⟨2, ![a, c]⟩
        (maximumf (sqrt (shapeCast ⟨2, ![a, 1]⟩ (multiReduction .add [1] ⟨1, ![a]⟩ (mulf x x) 0x00000000#32 h hφ h0) hc))
          (broadcast ⟨2, ![a, 1]⟩ e)) hb (ix2 p d)
      = Cert.MemBank.clampNorm e (fun d => x (ix2 p d)) :=
    (Cert.LibColumn.broadcastTo_a1_ab_apply _ hb p d).trans
      (congrArg (fun t : EReal => max (Ideal.sqrt t) e)
        ((Cert.LibColumn.shapeCast_a_a1_apply _ hc p 0).trans (rowSum_apply (mulf x x) _ h hφ h0 p)))
  exact congrArg (Ideal.div (x (ix2 p d))) hn

/-- The softmax of each row of a matrix of scores, read at (p, k): the softmax weight of row p at k.  The row maxima
    and the row sums of the exponentials are each re-cast as a column and laid back across the columns; the matrices
    between are named by equations so that each is written once. -/
theorem softRows_apply (s E mcol dcol : FVec Ideal ⟨2, ![a, b]⟩ .f32) (accm : BitVec (FTy.bits .f32))
    (h : (⟨2, ![a, b]⟩ : Shape).Reduces [1] ⟨1, ![a]⟩) (hc : (⟨1, ![a]⟩ : Shape).ShapeCasts ⟨2, ![a, 1]⟩)
    (hb : (⟨2, ![a, 1]⟩ : Shape).Broadcasts ⟨2, ![a, b]⟩) (hφ : FKind.Formats .f32)
    (hm : accm = FKind.maximumf.neutral .f32 hφ)
    (h0 : (0x00000000#32 : BitVec (FTy.bits .f32)) = FKind.add.neutral .f32 hφ)
    (hmcol : mcol = broadcastTo ⟨2, ![a, b]⟩ (shapeCast ⟨2, ![a, 1]⟩ (multiReduction .maximumf [1] ⟨1, ![a]⟩ s accm h hφ hm) hc) hb)
    (hE : E = exp (subf s mcol))
    (hdcol : dcol = broadcastTo ⟨2, ![a, b]⟩ (shapeCast ⟨2, ![a, 1]⟩ (multiReduction .add [1] ⟨1, ![a]⟩ E 0x00000000#32 h hφ h0) hc) hb)
    (p : Fin a) (k : Fin b) :
    divf E dcol (ix2 p k) = Cert.MemBank.softRow (Ideal.ofBits .f32 accm) (fun k => s (ix2 p k)) k := by
  subst hmcol hE hdcol
  have hmax : ∀ k' : Fin b,
      broadcastTo ⟨2, ![a, b]⟩ (shapeCast ⟨2, ![a, 1]⟩ (multiReduction .maximumf [1] ⟨1, ![a]⟩ s accm h hφ hm) hc) hb (ix2 p k')
        = Cert.MemBank.rowMax (Ideal.ofBits .f32 accm) (fun k => s (ix2 p k)) := fun k' =>
    (column_apply _ hc hb p k').trans (rowMaxf_apply s accm h hφ hm p)
  have hexp : ∀ k' : Fin b,
      exp (subf s (broadcastTo ⟨2, ![a, b]⟩ (shapeCast ⟨2, ![a, 1]⟩ (multiReduction .maximumf [1] ⟨1, ![a]⟩ s accm h hφ hm) hc) hb)) (ix2 p k')
        = Cert.MemBank.expRow (Ideal.ofBits .f32 accm) (fun k => s (ix2 p k)) k' := fun k' =>
    congrArg (fun m : EReal => Ideal.exp (s (ix2 p k') - m)) (hmax k')
  have hsum := ((column_apply _ hc hb p k).trans (rowSum_apply _ _ h hφ h0 p)).trans
    (Finset.sum_congr rfl fun k' _ => hexp k')
  exact congrArg₂ Ideal.div (hexp k) hsum

end Rows

/-! ## The three stored values -/

/-- The weights: entry (p, k) is the softmax weight feature row p gives memory row k. -/
theorem pay1_apply (x0 : Vec Ideal S512x512 .f32) (x2 : Vec Ideal S512x1024 .bf16) (p : Fin 512) (k : Fin 1024) :
    k0_pay1 (F := Ideal) x0 x2 (ix2 p k)
      = Cert.MemBank.attnRow (Ideal.ofBits .f32 0x2B8CBCCC#32) (Ideal.ofBits .f32 0xFF800000#32)
          (fun d : Fin 512 => x0 (ix2 p d)) (fun (k : Fin 1024) (d : Fin 512) => x2 (ix2 d k)) k := by
  unfold k0_pay1 Cert.MemBank.attnRow
  -- the softmax of the rows of the product matrix
  refine (softRows_apply _ _ _ _ 0xFF800000#32 reduces_S512x1024_S512 shapeCasts_S512_S512x1 broadcasts_S512x1_S512x1024
    (.inl rfl) rfl rfl rfl rfl rfl p k).trans ?_
  refine congrArg (fun s : Fin 1024 → EReal => Cert.MemBank.softRow (Ideal.ofBits .f32 0xFF800000#32) s k)
    (funext fun k' => ?_)
  -- the product matrix at (p, k'): the unit row of row p against memory row k'
  refine (Cert.LibDot.matmul_zero_plain_apply dot_S512x512_S512x1024_S512x1024_1_0_0_1_n_n rfl rfl rfl rfl rfl rfl none
    _ _ (ix2 p k')).trans ?_
  unfold Cert.MemBank.simRow
  refine Finset.sum_congr rfl fun d _ => congrArg₂ (fun u v : EReal => u * v) ?_ ?_
  · exact (unitRows_apply _ (Ideal.ofBits .f32 0x2B8CBCCC#32) reduces_S512x512_S512 shapeCasts_S512_S512x1
      broadcasts_S512x1_S512x512 (.inl rfl) rfl p d).trans
      (congrArg (fun f : S512x512.Idx → EReal =>
          Cert.MemBank.unitRow (Ideal.ofBits .f32 0x2B8CBCCC#32) (fun d => f (ix2 p d)) d)
        (shapeCast_self x0 shapeCasts_S512x512_S512x512))
  · exact congrFun (shapeCast_self x2 shapeCasts_S512x1024_S512x1024) (ix2 d k')

/-- The second product: entry (p, d) is the weighted sum over the memory rows of their entries at column d. -/
theorem pay2_apply (x0 : Vec Ideal S512x512 .f32) (x2 : Vec Ideal S512x1024 .bf16) (x1 : Vec Ideal S1024x512 .bf16)
    (p : Fin 512) (d : Fin 512) :
    k0_pay2 (F := Ideal) x0 x2 x1 (ix2 p d)
      = ∑ k : Fin 1024, Cert.MemBank.attnRow (Ideal.ofBits .f32 0x2B8CBCCC#32) (Ideal.ofBits .f32 0xFF800000#32)
          (fun d : Fin 512 => x0 (ix2 p d)) (fun (k : Fin 1024) (d : Fin 512) => x2 (ix2 d k)) k * x1 (ix2 k d) := by
  unfold k0_pay2
  refine (Cert.LibDot.matmul_zero_plain_apply dot_S512x1024_S1024x512_S512x512_1_0_0_1_n_n rfl rfl rfl rfl rfl rfl none
    _ _ (ix2 p d)).trans ?_
  refine Finset.sum_congr rfl fun k _ => ?_
  exact congrArg₂ (fun u v : EReal => u * v) (pay1_apply x0 x2 p k)
    (congrFun (shapeCast_self x1 shapeCasts_S1024x512_S1024x512) (ix2 k d))

/-- The third value: entry p is the largest weight of feature row p. -/
theorem pay3_apply (x0 : Vec Ideal S512x512 .f32) (x2 : Vec Ideal S512x1024 .bf16) (p : Fin 512) :
    k0_pay3 (F := Ideal) x0 x2 (ix1 p)
      = Cert.MemBank.matchRow (Ideal.ofBits .f32 0x2B8CBCCC#32) (Ideal.ofBits .f32 0xFF800000#32)
          (fun d : Fin 512 => x0 (ix2 p d)) (fun (k : Fin 1024) (d : Fin 512) => x2 (ix2 d k)) := by
  unfold k0_pay3 Cert.MemBank.matchRow Cert.MemBank.rowMax
  refine (rowMaxf_apply (k0_pay1 (F := Ideal) x0 x2) 0xFF800000#32 reduces_S512x1024_S512 (.inl rfl) rfl p).trans ?_
  exact Finset.fold_congr fun k _ => pay1_apply x0 x2 p k

end Cert.KernelIdeal.PayloadValue

end
-- ==== Proof.BlockReads.lean ====
/-
  The blocks of the pipelined region, as pieces of the whole arrays.

  The grid has 128 points.  At point t the first input block is rows 512·t … 512·t + 511 of the 65536 feature rows;
  the two memory inputs are fetched whole (one block each, the same at every point); the first output block is rows
  512·t … 512·t + 511 of the 65536 × 512 result, and the second is entries 512·t … 512·t + 511 of the 65536 match
  values.  So entry r of either result is written by point r / 512, and every entry is written by some point.
-/
import proofs.«153263_j82025285419168_1_alg».proof.Proof.Gen.KernelIdeal.Frame
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]
variable (m : (ℓ : Loc nD τ sig) → Buf (Elt F) ℓ)

/-- The printed index maps over the 128 points: the row-blocked windows are at block t, the memory windows at block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 1) = t.val :=
  (by decide +kernel : ∀ t : Fin grid0.N, _)

theorem N_eq : cfg0.N = 128 := N_0

/-- The feature block at point t, entry (p, d), is feature row 512·t + p at channel d. -/
theorem iblk0_apply (c : Dev nD) (t : Fin cfg0.N) (p d : Fin 512) (r : Fin 65536) (hr : r.val = t.val * 512 + p.val) :
    (iblk m c 0 t : Vec F S512x512 .f32) (ix2 p d) = (V m c main_v1 : S65536x512.Idx → Elt F .f32) (ix2 r d) := by
  obtain ⟨e00, e01, -⟩ := idx_facts t
  show (V m c main_v1 : S65536x512.Idx → Elt F .f32) (((cfg0.win 0).blk t).view.emb (ix2 p d)) = _
  refine congrArg (V m c main_v1 : S65536x512.Idx → Elt F .f32) (funext fun a => Fin.ext ?_)
  match a with
  | ⟨0, _⟩ => show win0_0.index t (0 : Fin 2) * 512 + 1 * p.val = r.val; rw [e00, hr]; omega
  | ⟨1, _⟩ => show win0_0.index t (1 : Fin 2) * 512 + 1 * d.val = d.val; rw [e01]; omega

/-- The memory block is the whole normalised memory. -/
theorem iblk1_apply (c : Dev nD) (t : Fin cfg0.N) (k : Fin 1024) (d : Fin 512) :
    (iblk m c 1 t : Vec F S1024x512 .bf16) (ix2 k d) = (V m c main_v7 : S1024x512.Idx → Elt F .bf16) (ix2 k d) := by
  obtain ⟨-, -, e10, e11, -⟩ := idx_facts t
  show (V m c main_v7 : S1024x512.Idx → Elt F .bf16) (((cfg0.win 1).blk t).view.emb (ix2 k d)) = _
  refine congrArg (V m c main_v7 : S1024x512.Idx → Elt F .bf16) (funext fun a => Fin.ext ?_)
  match a with
  | ⟨0, _⟩ => show win0_1.index t (0 : Fin 2) * 1024 + 1 * k.val = k.val; rw [e10]; omega
  | ⟨1, _⟩ => show win0_1.index t (1 : Fin 2) * 512 + 1 * d.val = d.val; rw [e11]; omega

/-- The transposed-memory block is the whole transposed memory. -/
theorem iblk2_apply (c : Dev nD) (t : Fin cfg0.N) (d : Fin 512) (k : Fin 1024) :
    (iblk m c 2 t : Vec F S512x1024 .bf16) (ix2 d k) = (V m c main_v8 : S512x1024.Idx → Elt F .bf16) (ix2 d k) := by
  obtain ⟨-, -, -, -, e20, e21, -⟩ := idx_facts t
  show (V m c main_v8 : S512x1024.Idx → Elt F .bf16) (((cfg0.win 2).blk t).view.emb (ix2 d k)) = _
  refine congrArg (V m c main_v8 : S512x1024.Idx → Elt F .bf16) (funext fun a => Fin.ext ?_)
  match a with
  | ⟨0, _⟩ => show win0_2.index t (0 : Fin 2) * 512 + 1 * d.val = d.val; rw [e20]; omega
  | ⟨1, _⟩ => show win0_2.index t (1 : Fin 2) * 1024 + 1 * k.val = k.val; rw [e21]; omega

/-- An index of the 65536 × 512 result is in point t's block iff each coordinate is in the block's range. -/
theorem mem_blk3 (t : Fin cfg0.N) (i : S65536x512.Idx) :
    i ∈ ((cfg0.win 3).blk t).view.set ↔ ∀ a : Fin 2, win0_3.index t a * S512x512.size a ≤ (i a).val ∧ (i a).val < win0_3.index t a * S512x512.size a + S512x512.size a := by
  show i ∈ ((View.whole main_v9_0).slice (win0_3.rect t)).set ↔ _
  rw [View.set_slice_whole, Rect.mem_set_unit]
  exact Iff.rfl

/-- An index of the 65536 match values is in point t's block iff it is in the block's range. -/
theorem mem_blk4 (t : Fin cfg0.N) (i : S65536.Idx) :
    i ∈ ((cfg0.win 4).blk t).view.set ↔ ∀ a : Fin 1, win0_4.index t a * S512.size a ≤ (i a).val ∧ (i a).val < win0_4.index t a * S512.size a + S512.size a := by
  show i ∈ ((View.whole main_v9_1).slice (win0_4.rect t)).set ↔ _
  rw [View.set_slice_whole, Rect.mem_set_unit]
  exact Iff.rfl

/-- Every entry of the 65536 × 512 result is written by the point of its row's block. -/
theorem cover3 (i : S65536x512.Idx) : ∃ t : Fin cfg0.N, (cfg0.win 3).flush t = true ∧ i ∈ ((cfg0.win 3).blk t).view.set := by
  have hi0 : (i 0).val < 65536 := (i 0).isLt
  have hi1 : (i 1).val < 512 := (i 1).isLt
  have hN : cfg0.N = 128 := N_0
  refine ⟨⟨(i 0).val / 512, by rw [hN]; omega⟩, flush0_3 _, ?_⟩
  rw [mem_blk3]
  obtain ⟨-, -, -, -, -, -, e30, e31, -⟩ := idx_facts ⟨(i 0).val / 512, by rw [hN]; omega⟩
  intro a
  match a with
  | ⟨0, _⟩ =>
    show win0_3.index _ (0 : Fin 2) * 512 ≤ (i 0).val ∧ (i 0).val < win0_3.index _ (0 : Fin 2) * 512 + 512
    rw [e30]; show (i 0).val / 512 * 512 ≤ (i 0).val ∧ (i 0).val < (i 0).val / 512 * 512 + 512; omega
  | ⟨1, _⟩ =>
    show win0_3.index _ (1 : Fin 2) * 512 ≤ (i 1).val ∧ (i 1).val < win0_3.index _ (1 : Fin 2) * 512 + 512
    rw [e31]; omega

/-- Every match value is written by the point of its block. -/
theorem cover4 (i : S65536.Idx) : ∃ t : Fin cfg0.N, (cfg0.win 4).flush t = true ∧ i ∈ ((cfg0.win 4).blk t).view.set := by
  have hi0 : (i 0).val < 65536 := (i 0).isLt
  have hN : cfg0.N = 128 := N_0
  refine ⟨⟨(i 0).val / 512, by rw [hN]; omega⟩, flush0_4 _, ?_⟩
  rw [mem_blk4]
  obtain ⟨-, -, -, -, -, -, -, -, e40⟩ := idx_facts ⟨(i 0).val / 512, by rw [hN]; omega⟩
  intro a
  match a with
  | ⟨0, _⟩ =>
    show win0_4.index _ (0 : Fin 1) * 512 ≤ (i 0).val ∧ (i 0).val < win0_4.index _ (0 : Fin 1) * 512 + 512
    rw [e40]; show (i 0).val / 512 * 512 ≤ (i 0).val ∧ (i 0).val < (i 0).val / 512 * 512 + 512; omega

end Cert.KernelIdeal.Blocks

end
-- ==== Proof.HostPrefix.lean ====
/-
  What the pipelined region finds in its three input arrays.

  Before the region the program lays the features out as 65536 rows of 512 channels (a transpose that moves the
  channel axis last, then a reshape that merges the three leading axes), and divides every memory row by its
  Euclidean length (the length kept at least the floor 1e-12's float word): the row sum of squares, its square
  root, the larger of that and the floor, the quotient.  The region reads that normalised memory twice, once as it
  is and once transposed.  Here each of the three arrays is named as that term of the program's two arguments.
-/
import proofs.«153263_j82025285419168_1_alg».proof.Proof.Gen.KernelIdeal.Frame
import Idealize.ShloMosaic.Lib.StableHlo.Run
import Idealize.ShloMosaic.Lib.Pipeline.Value

noncomputable section

namespace Cert.KernelIdeal.HostValue

open Cert.KernelIdeal Cert.KernelIdeal.Gen Idealize.ShloMosaic Idealize.ShloMosaic.TcCoe Idealize.SL.Sem Idealize.ShloMosaic.StableHlo

variable {F : FTy → Type} [FloatOps F]

/-- The features as rows: channel axis moved last, the three leading axes merged. -/
def featRows (x : (⟨S16x512x64x64, .f32⟩ : BufTy).Contents (Elt F)) : (⟨S65536x512, .f32⟩ : BufTy).Contents (Elt F) :=
  shapeCast S65536x512 (transpose S16x64x64x512 [0, 2, 3, 1] x transposes_S16x512x64x64_S16x64x64x512_0_2_3_1) shapeCasts_S16x64x64x512_S65536x512

/-- Every memory row divided by its Euclidean length, the length kept at least the floor. -/
def memUnit (y : (⟨S1024x512, .f32⟩ : BufTy).Contents (Elt F)) : (⟨S1024x512, .f32⟩ : BufTy).Contents (Elt F) :=
  Host.divf y (broadcastInDim S1024x512 ![0, 1] bcast_S1024x1_S1024x512_0_1
    (maximumf (Host.sqrt (broadcastInDim S1024x1 ![0] bcast_S1024_S1024x1_0
        (Host.reduceAdd (mulf y y) (constant S_ .f32 0x00000000#32) reducesTo_S1024x512_S1024_d1 h_S_)))
      (broadcastInDim S1024x1 ![] bcast_S_S1024x1 (constant S_ .f32 0x2B8CBCCC#32))))

variable (m : (ℓ : Loc nD τ sig) → Buf (Elt F) ℓ)

/-- The region's first input array is the features as rows. -/
theorem V_v1 (c : Dev nD) : (V m c main_v1 : S65536x512.Idx → Elt F .f32) = featRows (m ((c.tc : Thread nD τ).loc main_arg0)) := by
  dsimp only [V, V0]
  simp only [hostOps0, hostOps0_1, hostOps0_2, List.flatten_cons, List.flatten_nil, List.append_nil, List.cons_append, List.nil_append]
  after_results
  rfl

/-- Its second input array is the normalised memory (narrowed to the matrix unit's input format). -/
theorem V_v7 (c : Dev nD) : (V m c main_v7 : S1024x512.Idx → Elt F .bf16)
    = truncf .bf16 (memUnit (m ((c.tc : Thread nD τ).loc main_arg1))) bitsLt_bf16_f32 := by
  dsimp only [V, V0]
  simp only [hostOps0, hostOps0_1, hostOps0_2, List.flatten_cons, List.flatten_nil, List.append_nil, List.cons_append, List.nil_append]
  after_results
  rfl

/-- Its third input array is the second one transposed. -/
theorem V_v8 (c : Dev nD) : (V m c main_v8 : S512x1024.Idx → Elt F .bf16)
    = transpose S512x1024 [1, 0] (truncf .bf16 (memUnit (m ((c.tc : Thread nD τ).loc main_arg1))) bitsLt_bf16_f32) transposes_S1024x512_S512x1024_1_0 := by
  dsimp only [V, V0]
  simp only [hostOps0, hostOps0_1, hostOps0_2, List.flatten_cons, List.flatten_nil, List.append_nil, List.cons_append, List.nil_append]
  after_results
  rfl

end Cert.KernelIdeal.HostValue

end
-- ==== Proof.Tail.lean ====
/-
  The two results, from what the region leaves.

  After the region the program only re-lays its two output arrays: the 65536 × 512 array of read-back rows is split
  back into (batch, height, width, channel) and the channel axis moved second; the 65536 match values are split into
  (batch, height, width).  So each result is that re-laying of the array the region ends with.
-/
import proofs.«153263_j82025285419168_1_alg».proof.Proof.Gen.KernelIdeal.Frame
import Idealize.ShloMosaic.Lib.StableHlo.Run
import Idealize.ShloMosaic.Lib.Pipeline.Value

noncomputable section

namespace Cert.KernelIdeal.TailValue

open Cert.KernelIdeal Cert.KernelIdeal.Gen Idealize.ShloMosaic Idealize.ShloMosaic.TcCoe Idealize.SL.Sem Idealize.ShloMosaic.StableHlo
open Idealize.ShloMosaic.Pipeline (Dat)

variable {F : FTy → Type} [FloatOps F]

/-- The re-laying of the read-back rows: split the rows into (batch, height, width), move the channels second. -/
def relayRows (A : S65536x512.Idx → Elt F .f32) : S16x512x64x64.Idx → Elt F .f32 :=
  transpose S16x512x64x64 [0, 3, 1, 2] (shapeCast S16x64x64x512 A shapeCasts_S65536x512_S16x64x64x512) transposes_S16x64x64x512_S16x512x64x64_0_3_1_2

/-- The re-laying of the match values: split into (batch, height, width). -/
def relayMatch (A : S65536.Idx → Elt F .f32) : S16x64x64.Idx → Elt F .f32 :=
  shapeCast S16x64x64 A shapeCasts_S65536_S16x64x64

variable (m : (ℓ : Loc nD τ sig) → Buf (Elt F) ℓ)

/-- The first result is the re-laying of the region's first output array. -/
theorem tail11 (c : Dev nD) :
    Pipeline.afterTail₀ cfgs (dats m) 0 (V0 m) [hostOps1] c main_v11
      = relayRows ((dats m 0 c).arrAt 3 cfg0.N : S65536x512.Idx → Elt F .f32) := by
  unfold Pipeline.afterTail₀
  show StableHlo.after hostOps1 _ (Proc.devRef .tc main_v11) = _
  after_results
  exact congrArg (fun A : S65536x512.Idx → Elt F .f32 => relayRows A)
    (Pipeline.withArrays_arr spec0 launch0.win.arr_inj c (V0 m c) (fun w => (dats m 0 c).arrAt w cfg0.N) 3)

/-- The second result is the re-laying of the region's second output array. -/
theorem tail12 (c : Dev nD) :
    Pipeline.afterTail₀ cfgs (dats m) 0 (V0 m) [hostOps1] c main_v12
      = relayMatch ((dats m 0 c).arrAt 4 cfg0.N : S65536.Idx → Elt F .f32) := by
  unfold Pipeline.afterTail₀
  show StableHlo.after hostOps1 _ (Proc.devRef .tc main_v12) = _
  after_results
  exact congrArg (fun A : S65536.Idx → Elt F .f32 => relayMatch A)
    (Pipeline.withArrays_arr spec0 launch0.win.arr_inj c (V0 m c) (fun w => (dats m 0 c).arrAt w cfg0.N) 4)

end Cert.KernelIdeal.TailValue

end
-- ==== Proof.KernelValue.lean ====
/-
  The array each output of the pipelined region ends with.

  At grid point t the body computes, from rows 512·t … 512·t + 511 of the features and the whole normalised memory
  (read once as it is and once transposed), the read-back rows and the match values of exactly those rows.  Row by
  row the payload is the specification's row function of that feature row, so what point t writes back is block t of
  the specification applied to ALL rows; the blocks of the 128 points cover the two output arrays, hence each array
  ends as the specification of the whole feature array.  The results are the program's re-laying of these arrays.
-/
import proofs.«153263_j82025285419168_1_alg».proof.Proof.Gen.KernelIdeal.Frame
import proofs.«153263_j82025285419168_1_alg».proof.Proof.PayloadValue
import proofs.«153263_j82025285419168_1_alg».proof.Proof.BlockReads
import proofs.«153263_j82025285419168_1_alg».proof.Proof.HostPrefix
import proofs.«153263_j82025285419168_1_alg».proof.Proof.Tail
import proofs.«153263_j82025285419168_1_alg».proof.Proof.Spec
import Idealize.ShloMosaic.Lib.Pipeline.Value
import Idealize.ShloMosaic.Lib.ValueIdx

noncomputable section

namespace Cert.KernelIdeal.KValue

open Cert.KernelIdeal Cert.KernelIdeal.Gen Idealize.ShloMosaic Idealize.ShloMosaic.TcCoe Idealize.SL.Sem
open Idealize.ShloMosaic.ValueIdx Cert.MemBank
open Cert.KernelIdeal.Blocks Cert.KernelIdeal.HostValue Cert.KernelIdeal.TailValue Cert.KernelIdeal.PayloadValue
open Idealize.ShloMosaic.Pipeline (Dat)

/-- The floor of a row's length and the start value of a row maximum, as the float words the programs print. -/
abbrev floorW : EReal := Ideal.ofBits .f32 0x2B8CBCCC#32
abbrev startW : EReal := Ideal.ofBits .f32 0xFF800000#32

/-! ## One block, row by row -/

/-- Row p of a block's read-back is the specification's read-back of the feature row it was loaded from. -/
theorem recon_block (X0 : Vec Ideal S512x512 .f32) (X1 : Vec Ideal S1024x512 .bf16) (X2 : Vec Ideal S512x1024 .bf16)
    (feat : S65536x512.Idx → EReal) (mem : S1024x512.Idx → EReal) (r : Fin 65536) (p d : Fin 512)
    (h0 : ∀ d', X0 (ix2 p d') = feat (ix2 r d'))
    (h1 : ∀ k d', X1 (ix2 k d') = mem (ix2 k d'))
    (h2 : ∀ d' k, X2 (ix2 d' k) = mem (ix2 k d')) :
    k0_pay2 (F := Ideal) X0 X2 X1 (ix2 p d) = Recon floorW startW feat mem (ix2 r d) := by
  rw [pay2_apply, Recon_apply]
  unfold reconRow
  have ex : (fun d' : Fin 512 => X0 (ix2 p d')) = rowOf feat r := funext fun d' => h0 d'
  have em : (fun (k : Fin 1024) (d' : Fin 512) => X2 (ix2 d' k)) = rowOf mem := funext fun k => funext fun d' => h2 d' k
  rw [ex, em]
  exact Finset.sum_congr rfl fun k _ => by rw [h1 k d]; rfl

/-- Row p of a block's match value is the specification's match value of the feature row it was loaded from. -/
theorem match_block (X0 : Vec Ideal S512x512 .f32) (X2 : Vec Ideal S512x1024 .bf16)
    (feat : S65536x512.Idx → EReal) (mem : S1024x512.Idx → EReal) (r : Fin 65536) (p : Fin 512)
    (h0 : ∀ d', X0 (ix2 p d') = feat (ix2 r d'))
    (h2 : ∀ d' k, X2 (ix2 d' k) = mem (ix2 k d')) :
    k0_pay3 (F := Ideal) X0 X2 (ix1 p) = Match floorW startW feat mem (ix1 r) := by
  rw [pay3_apply, Match_apply]
  have ex : (fun d' : Fin 512 => X0 (ix2 p d')) = rowOf feat r := funext fun d' => h0 d'
  have em : (fun (k : Fin 1024) (d' : Fin 512) => X2 (ix2 d' k)) = rowOf mem := funext fun k => funext fun d' => h2 d' k
  rw [ex, em]

/-! ## The region's arrays -/

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-- The features as the region finds them, and the normalised memory as the region finds it. -/
abbrev featV (c : Dev nD) : S65536x512.Idx → EReal := (V m c main_v1 : S65536x512.Idx → Elt Ideal .f32)
abbrev memV (c : Dev nD) : S1024x512.Idx → EReal := (V m c main_v7 : S1024x512.Idx → Elt Ideal .bf16)

/-- The transposed memory input at (d, k) is the memory input at (k, d). -/
theorem memT_apply (c : Dev nD) (d : Fin 512) (k : Fin 1024) :
    (V m c main_v8 : S512x1024.Idx → Elt Ideal .bf16) (ix2 d k) = memV m c (ix2 k d) := by
  show _ = (V m c main_v7 : S1024x512.Idx → Elt Ideal .bf16) (ix2 k d)
  rw [V_v8, V_v7]
  exact transpose_apply [1, 0] _ transposes_S1024x512_S512x1024_1_0 (ix2 d k) (ix2 k d) (fun b => match b with
    | ⟨0, _⟩ => rfl
    | ⟨1, _⟩ => rfl)

/-- WHAT POINT t WRITES BACK to the first output is block t of the specification's read-back of all rows. -/
theorem flushed3_eq (c : Dev nD) (t : Fin cfg0.N) :
    (dats m 0 c).flushed 3 t = ((cfg0.win 3).blk t).view.read (Elt Ideal) (Recon floorW startW (featV m c) (memV m c)) := by
  show (cfg0.win 3).cut (grid0.coords t) ((dats m 0 c).after 3 t) = _
  rw [after0_3]
  unfold out0_3
  rw [View.canon_unit_zero hz2]
  simp only [View.ld_unit_zero (S := S512x512) hz2, View.ld_unit_zero (S := S512x1024) hz2, View.ld_unit_zero (S := S1024x512) hz2]
  obtain ⟨-, -, -, -, -, -, e30, e31, -⟩ := idx_facts t
  have hN : cfg0.N = 128 := N_0
  have ht : t.val < 128 := hN ▸ t.isLt
  funext j
  obtain ⟨p, d, rfl⟩ : ∃ (p : Fin 512) (d : Fin 512), j = ix2 p d := ⟨j 0, j 1, eq_ix2 j⟩
  show k0_pay2 (F := Ideal) (iblk m c 0 t) (iblk m c 2 t) (iblk m c 1 t) (ix2 p d)
    = Recon floorW startW (featV m c) (memV m c) (((cfg0.win 3).blk t).view.emb (ix2 p d))
  have hemb : ((cfg0.win 3).blk t).view.emb (ix2 p d) = (ix2 (⟨t.val * 512 + p.val, by have := p.isLt; omega⟩ : Fin 65536) d : S65536x512.Idx) := by
    funext a; apply Fin.ext
    match a with
    | ⟨0, _⟩ => show win0_3.index t (0 : Fin 2) * 512 + 1 * p.val = t.val * 512 + p.val; rw [e30]; omega
    | ⟨1, _⟩ => show win0_3.index t (1 : Fin 2) * 512 + 1 * d.val = d.val; rw [e31]; omega
  rw [hemb]
  exact recon_block (iblk m c 0 t) (iblk m c 1 t) (iblk m c 2 t) (featV m c) (memV m c) _ p d
    (fun d' => iblk0_apply m c t p d' _ rfl)
    (fun k d' => iblk1_apply m c t k d')
    (fun d' k => (iblk2_apply m c t d' k).trans (memT_apply m c d' k))

/-- WHAT POINT t WRITES BACK to the second output is block t of the specification's match values of all rows. -/
theorem flushed4_eq (c : Dev nD) (t : Fin cfg0.N) :
    (dats m 0 c).flushed 4 t = ((cfg0.win 4).blk t).view.read (Elt Ideal) (Match floorW startW (featV m c) (memV m c)) := by
  show (cfg0.win 4).cut (grid0.coords t) ((dats m 0 c).after 4 t) = _
  rw [after0_4]
  unfold out0_4
  rw [View.canon_unit_zero hz1]
  simp only [View.ld_unit_zero (S := S512x512) hz2, View.ld_unit_zero (S := S512x1024) hz2]
  obtain ⟨-, -, -, -, -, -, -, -, e40⟩ := idx_facts t
  have hN : cfg0.N = 128 := N_0
  have ht : t.val < 128 := hN ▸ t.isLt
  funext j
  obtain ⟨p, rfl⟩ : ∃ (p : Fin 512), j = ix1 p := ⟨j 0, eq_ix1 j⟩
  show k0_pay3 (F := Ideal) (iblk m c 0 t) (iblk m c 2 t) (ix1 p)
    = Match floorW startW (featV m c) (memV m c) (((cfg0.win 4).blk t).view.emb (ix1 p))
  have hemb : ((cfg0.win 4).blk t).view.emb (ix1 p) = (ix1 (⟨t.val * 512 + p.val, by have := p.isLt; omega⟩ : Fin 65536) : S65536.Idx) := by
    funext a; apply Fin.ext
    match a with
    | ⟨0, _⟩ => show win0_4.index t (0 : Fin 1) * 512 + 1 * p.val = t.val * 512 + p.val; rw [e40]; omega
  rw [hemb]
  exact match_block (iblk m c 0 t) (iblk m c 2 t) (featV m c) (memV m c) _ p
    (fun d' => iblk0_apply m c t p d' _ rfl)
    (fun d' k => (iblk2_apply m c t d' k).trans (memT_apply m c d' k))

/-- The first output array after the run: the specification's read-back of all rows. -/
theorem final3 (c : Dev nD) : (dats m 0 c).arrAt 3 cfg0.N = Recon floorW startW (featV m c) (memV m c) :=
  (dats m 0 c).arrAt_eq_of_cover 3 (Recon floorW startW (featV m c) (memV m c)) (fun t _ => flushed3_eq m c t) cover3

/-- The second output array after the run: the specification's match values of all rows. -/
theorem final4 (c : Dev nD) : (dats m 0 c).arrAt 4 cfg0.N = Match floorW startW (featV m c) (memV m c) :=
  (dats m 0 c).arrAt_eq_of_cover 4 (Match floorW startW (featV m c) (memV m c)) (fun t _ => flushed4_eq m c t) cover4

/-! ## The run, read -/

/-- The features and the normalised memory as terms of the program's two arguments. -/
theorem featV_eq (c : Dev nD) : featV m c = featRows (m ((c.tc : Thread nD τ).loc main_arg0)) := V_v1 m c
theorem memV_eq (c : Dev nD) : memV m c = memUnit (F := Ideal) (m ((c.tc : Thread nD τ).loc main_arg1)) := by
  show (V m c main_v7 : S1024x512.Idx → Elt Ideal .bf16) = _
  rw [V_v7]; rfl

/-- Every weakly fair execution of the program ends with the two results at the re-laying of the specification of
    the feature rows and the normalised memory, and with its arguments unchanged. -/
theorem run : θ_run defs (onTc (τ := τ) (main (F := Ideal))) ⟨m, fun _ => 0, ρ⟩ fun r => ∀ c : Dev nD,
      r.2.mem ((c.tc : Thread nD τ).loc main_v11)
        = relayRows (F := Ideal) (Recon floorW startW (featRows (F := Ideal) (m ((c.tc : Thread nD τ).loc main_arg0))) (memUnit (F := Ideal) (m ((c.tc : Thread nD τ).loc main_arg1))))
      ∧ r.2.mem ((c.tc : Thread nD τ).loc main_v12)
        = relayMatch (F := Ideal) (Match floorW startW (featRows (F := Ideal) (m ((c.tc : Thread nD τ).loc main_arg0))) (memUnit (F := Ideal) (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v11 (Pipeline.mem_restRefs_of main_v11 (by decide) (by decide))).trans
        ((tail11 m c).trans (by rw [final3 m c, featV_eq m c, memV_eq m c])),
     ((h c).2 main_v12 (Pipeline.mem_restRefs_of main_v12 (by decide) (by decide))).trans
        ((tail12 m c).trans (by rw [final4 m c, featV_eq m c, memV_eq m c])),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.KValue

end
-- ==== Proof.RefValue.lean ====
/-
  The reference computation read entry by entry, on the extended reals.

  The reference lays the features out as 65536 rows of 512 channels and normalises the 1024 memory rows; both
  arrays are carried here as they are and never opened.  From them it forms, for each feature row x: the sum of
  the squares of x, its square root kept at least the floor (the clamped length), x divided by that length (the unit
  row), the unit row's products with every memory row (the similarities, a matrix product against the transposed
  memory), their maximum from the start value, the exponentials of the similarities less that maximum, the sum of
  those exponentials, the quotients (the softmax weights), the weights' products with the memory columns (the row
  read back), and the largest weight from the start value.  Each lemma below reads one of these arrays at an entry
  and names it by the row-wise definition of the specification; the last two say that the read-back array and the
  array of largest weights are the specification's two results.
-/
import proofs.«153263_j82025285419168_1_alg».proof.Proof.RefReadP
import proofs.«153263_j82025285419168_1_alg».proof.Proof.Spec
import Idealize.ShloMosaic.Lib.ValueIdx
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.MemBank

-- the floor of a row's length and the start value of the two maxima: carried as these words, never evaluated
local notation "epsW" => Ideal.ofBits FTy.f32 0x2B8CBCCC#32
local notation "startW" => Ideal.ofBits FTy.f32 0xFF800000#32

variable (x0 : (⟨S16x512x64x64, .f32⟩ : BufTy).Contents (Elt Ideal)) (x1 : (⟨S1024x512, .f32⟩ : BufTy).Contents (Elt Ideal))

/-- Dropping the second axis of a 65536 × 1024 array leaves its 65536 rows. -/
theorem reduces_rows : S65536x1024.Reduces [1] S65536 := by decide

/-- Row index r with column k inserted is the entry (r, k). -/
theorem lift_rows (r : Fin 65536) (k : Fin 1024) : reduces_rows.lift (ix1 r) k = ix2 r k :=
  funext fun c => Fin.ext (by match c with | ⟨0, _⟩ => rfl | ⟨1, _⟩ => rfl)

/-- The sum of the squares of feature row r: the sum starts from the zero word, which is 0. -/
theorem sumsq_apply (r : Fin 65536) :
    val_main_call0_v1 (F := Ideal) x0 (ix1 r)
      = ∑ d : Fin 512, rowOf (val_main_v1 (F := Ideal) x0) r d * rowOf (val_main_v1 (F := Ideal) x0) r d := by
  rw [val_main_call0_v1_apply]
  have h0 : val_main_call0_cst (F := Ideal) (Shape.Idx.first h_S_) = 0 := Ideal.ofBits_zero_f32
  rw [h0, zero_add]
  refine Finset.sum_congr rfl fun k _ => ?_
  have hi : idx_main_call0_v1 (ix1 r) k = ix2 r k :=
    funext fun a => Fin.ext (by match a with | ⟨0, _⟩ => rfl | ⟨1, _⟩ => rfl)
  rw [hi]
  rfl

/-- The clamped length of feature row r, stored as a column. -/
theorem v4_apply (r : Fin 65536) (u : Fin 1) :
    val_main_v4 (F := Ideal) x0 (ix2 r u) = clampNorm epsW (rowOf (val_main_v1 (F := Ideal) x0) r) := by
  rw [val_main_v4_apply, val_main_v2_apply, val_main_call0_v2_apply, val_main_v3_apply]
  have hi : idx_main_call0_v2 (ix2 r u) = ix1 r :=
    funext fun a => Fin.ext (by match a with | ⟨0, _⟩ => rfl)
  rw [hi, sumsq_apply]
  rfl

/-- The unit row: entry (r, d) is the feature divided by the clamped length of its row. -/
theorem v6_apply (r : Fin 65536) (d : Fin 512) :
    val_main_v6 (F := Ideal) x0 (ix2 r d) = unitRow epsW (rowOf (val_main_v1 (F := Ideal) x0) r) d := by
  rw [val_main_v6_apply, val_main_v5_apply]
  have hi : idx_main_v5 (ix2 r d) = ix2 r (0 : Fin 1) :=
    funext fun a => Fin.ext (by match a with | ⟨0, _⟩ => rfl | ⟨1, _⟩ => rfl)
  rw [hi, v4_apply]
  rfl

/-- The similarities: entry (r, k) is the product of unit row r with memory row k (the transposed memory at
    (d, k) is the memory at (k, d)). -/
theorem v13_apply (r : Fin 65536) (k : Fin 1024) :
    val_main_v13 (F := Ideal) x0 x1 (ix2 r k)
      = simRow epsW (rowOf (val_main_v1 (F := Ideal) x0) r) (rowOf (val_main_v11 (F := Ideal) x1)) k := by
  rw [val_main_v13_apply]
  unfold simRow
  refine Finset.sum_congr rfl fun d _ => ?_
  have hl : lidx_main_v13 (ix2 r k) d = ix2 r d :=
    funext fun a => Fin.ext (by match a with | ⟨0, _⟩ => rfl | ⟨1, _⟩ => rfl)
  have hr : idx_main_v12 (ridx_main_v13 (ix2 r k) d) = ix2 k d :=
    funext fun a => Fin.ext (by match a with | ⟨0, _⟩ => rfl | ⟨1, _⟩ => rfl)
  rw [val_main_v12_apply, hl, hr, v6_apply]
  rfl

/-- The largest similarity of row r, from the start value: the fold of max over the row's 1024 entries. -/
theorem v14_apply (r : Fin 65536) :
    val_main_v14 (F := Ideal) x0 x1 (ix1 r)
      = rowMax startW (simRow epsW (rowOf (val_main_v1 (F := Ideal) x0) r) (rowOf (val_main_v11 (F := Ideal) x1))) := by
  unfold val_main_v14
  refine (Host.reduce_eq_fold_single (FloatOps.maximumf (F := Ideal) (φ := .f32)) (val_main_v13 (F := Ideal) x0 x1)
    (val_main_cst_1 (F := Ideal)) reducesTo_S65536x1024_S65536_d1 reduces_rows h_S_ (ix1 r)).trans ?_
  unfold rowMax
  refine Finset.fold_congr fun (k : Fin 1024) _ => ?_
  exact (congrArg (val_main_v13 (F := Ideal) x0 x1) (lift_rows r k)).trans (v13_apply x0 x1 r k)

/-- Taking the larger of the start value and that maximum changes nothing. -/
theorem v16_apply (r : Fin 65536) :
    val_main_v16 (F := Ideal) x0 x1 (ix1 r)
      = rowMax startW (simRow epsW (rowOf (val_main_v1 (F := Ideal) x0) r) (rowOf (val_main_v11 (F := Ideal) x1))) := by
  rw [val_main_v16_apply, val_main_v15_apply, v14_apply]
  exact max_rowMax _ _

/-- The exponential of each similarity less the row's largest. -/
theorem v20_apply (r : Fin 65536) (k : Fin 1024) :
    val_main_v20 (F := Ideal) x0 x1 (ix2 r k)
      = expRow startW (simRow epsW (rowOf (val_main_v1 (F := Ideal) x0) r) (rowOf (val_main_v11 (F := Ideal) x1))) k := by
  rw [val_main_v20_apply, val_main_v19_apply, val_main_v18_apply, val_main_v17_apply]
  have hi : idx_main_v17 (idx_main_v18 (ix2 r k)) = ix1 r :=
    funext fun a => Fin.ext (by match a with | ⟨0, _⟩ => rfl)
  rw [hi, v16_apply, v13_apply]
  rfl

/-- The sum of row r's exponentials: the sum starts from the zero word, which is 0. -/
theorem v21_apply (r : Fin 65536) :
    val_main_v21 (F := Ideal) x0 x1 (ix1 r)
      = ∑ k : Fin 1024,
          expRow startW (simRow epsW (rowOf (val_main_v1 (F := Ideal) x0) r) (rowOf (val_main_v11 (F := Ideal) x1))) k := by
  rw [val_main_v21_apply]
  have h0 : val_main_cst_3 (F := Ideal) (Shape.Idx.first h_S_) = 0 := Ideal.ofBits_zero_f32
  rw [h0, zero_add]
  refine Finset.sum_congr rfl fun k _ => ?_
  have hi : idx_main_v21 (ix1 r) k = ix2 r k :=
    funext fun a => Fin.ext (by match a with | ⟨0, _⟩ => rfl | ⟨1, _⟩ => rfl)
  rw [hi, v20_apply]

/-- The softmax weights: each exponential divided by its row's sum. -/
theorem v24_apply (r : Fin 65536) (k : Fin 1024) :
    val_main_v24 (F := Ideal) x0 x1 (ix2 r k)
      = attnRow epsW startW (rowOf (val_main_v1 (F := Ideal) x0) r) (rowOf (val_main_v11 (F := Ideal) x1)) k := by
  rw [val_main_v24_apply, val_main_v23_apply, val_main_v22_apply]
  have hi : idx_main_v22 (idx_main_v23 (ix2 r k)) = ix1 r :=
    funext fun a => Fin.ext (by match a with | ⟨0, _⟩ => rfl)
  rw [hi, v21_apply, v20_apply]
  rfl

/-- The read-back array is the specification's: entry (r, d) is the weights of row r against memory column d. -/
theorem ref_recon :
    val_main_v25 (F := Ideal) x0 x1
      = Recon epsW startW (val_main_v1 (F := Ideal) x0) (val_main_v11 (F := Ideal) x1) := by
  funext i
  obtain ⟨r, d, rfl⟩ : ∃ (r : Fin 65536) (d : Fin 512), i = ix2 r d := ⟨i 0, i 1, eq_ix2 i⟩
  rw [val_main_v25_apply, Recon_apply]
  unfold reconRow
  refine Finset.sum_congr rfl fun k _ => ?_
  have hl : lidx_main_v25 (ix2 r d) k = ix2 r k :=
    funext fun a => Fin.ext (by match a with | ⟨0, _⟩ => rfl | ⟨1, _⟩ => rfl)
  have hr : ridx_main_v25 (ix2 r d) k = ix2 k d :=
    funext fun a => Fin.ext (by match a with | ⟨0, _⟩ => rfl | ⟨1, _⟩ => rfl)
  rw [hl, hr, v24_apply]
  rfl

/-- The array of largest weights is the specification's: entry r is the fold of max over row r's weights. -/
theorem ref_match :
    val_main_v28 (F := Ideal) x0 x1
      = Match epsW startW (val_main_v1 (F := Ideal) x0) (val_main_v11 (F := Ideal) x1) := by
  funext i
  obtain ⟨r, rfl⟩ : ∃ r : Fin 65536, i = ix1 r := ⟨i 0, eq_ix1 i⟩
  rw [Match_apply]
  unfold val_main_v28 matchRow rowMax
  refine (Host.reduce_eq_fold_single (FloatOps.maximumf (F := Ideal) (φ := .f32)) (val_main_v24 (F := Ideal) x0 x1)
    (val_main_cst_4 (F := Ideal)) reducesTo_S65536x1024_S65536_d1 reduces_rows h_S_ (ix1 r)).trans ?_
  refine Finset.fold_congr fun (k : Fin 1024) _ => ?_
  exact (congrArg (val_main_v24 (F := Ideal) x0 x1) (lift_rows r k)).trans (v24_apply x0 x1 r k)

end Cert.ReferenceIdeal.RefValue

end
-- ==== Proof.lean ====
/-
  The memory-bank read, kernel against reference, on the extended reals.

  Both programs lay the features out as 65536 rows of 512 channels and divide each of the 1024 memory rows by its
  Euclidean length (kept at least the float word of 1e-12).  For every feature row both then compute the same row
  function (Proof/Spec.lean): the row divided by its clamped length, its products with the memory rows, the softmax
  of those products, the weighted sum of the memory rows, and the largest weight.  The kernel does this on blocks of
  512 rows, one grid point per block, with the memory resident; the reference on all rows at once.  Because the row
  function never looks at another feature row, block t of the kernel's output is block t of the specification of the
  whole feature array, and the 128 blocks cover it (Proof/KernelValue.lean); the reference, read at an index, is the
  same specification (Proof/RefValue.lean: a product into a zero accumulator and the host's product are one sum; a
  lane sum and the host's sum are one sum; a lane maximum and the host's are one fold of max; and the host's extra
  maximum with minus infinity changes nothing).  No law is used that needs a finite argument, so the precondition is
  never opened.  Both programs end with the same re-laying of the two arrays.  The three frames are the programs'
  own runs; nothing was rewritten between the kernel and its idealisation, so that claim is `True`.
-/
import proofs.«153263_j82025285419168_1_alg».proof.Defs
import proofs.«153263_j82025285419168_1_alg».proof.Proof.Gen.Kernel
import proofs.«153263_j82025285419168_1_alg».proof.Proof.Gen.Kernel.Skeleton
import proofs.«153263_j82025285419168_1_alg».proof.Proof.Gen.Kernel.Launch
import proofs.«153263_j82025285419168_1_alg».proof.Proof.Gen.Kernel.Points
import proofs.«153263_j82025285419168_1_alg».proof.Proof.Gen.Kernel.Frame
import proofs.«153263_j82025285419168_1_alg».proof.Proof.Gen.KernelIdeal
import proofs.«153263_j82025285419168_1_alg».proof.Proof.Gen.KernelIdeal.Skeleton
import proofs.«153263_j82025285419168_1_alg».proof.Proof.Gen.KernelIdeal.Launch
import proofs.«153263_j82025285419168_1_alg».proof.Proof.Gen.KernelIdeal.Points
import proofs.«153263_j82025285419168_1_alg».proof.Proof.Gen.KernelIdeal.Frame
import proofs.«153263_j82025285419168_1_alg».proof.Proof.Gen.ReferenceIdeal
import proofs.«153263_j82025285419168_1_alg».proof.Proof.Gen.Pre_finite_inputs
import proofs.«153263_j82025285419168_1_alg».proof.Proof.RefRunP
import proofs.«153263_j82025285419168_1_alg».proof.Proof.RefReadP
import proofs.«153263_j82025285419168_1_alg».proof.Proof.KernelValue
import proofs.«153263_j82025285419168_1_alg».proof.Proof.RefValue
import Idealize.ShloMosaic.Adequacy
import Idealize.ShloMosaic.Init

noncomputable section

namespace Cert.Proof

open Idealize.ShloMosaic Idealize.SL.Sem

/-- The kernel's program and the reference lay the features out by the same two operations. -/
theorem feat_eq (x : (⟨Cert.KernelIdeal.S16x512x64x64, .f32⟩ : BufTy).Contents (Elt Ideal)) :
    Cert.KernelIdeal.HostValue.featRows (F := Ideal) x = Cert.ReferenceIdeal.Read.val_main_v1 (F := Ideal) x := rfl

/-- They normalise the memory rows by the same operations. -/
theorem mem_eq (y : (⟨Cert.KernelIdeal.S1024x512, .f32⟩ : BufTy).Contents (Elt Ideal)) :
    Cert.KernelIdeal.HostValue.memUnit (F := Ideal) y = Cert.ReferenceIdeal.Read.val_main_v11 (F := Ideal) y := rfl

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- From memories that agree on the two arguments both programs end with the re-laying of the specification of the
    feature rows and the normalised memory. -/
theorem algebraic : Cert.algebraic_KernelIdeal_ReferenceIdeal := by
  intro m ρ m' ρ' _ hagree
  refine ⟨_, _, Cert.KernelIdeal.KValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v27_eq, (hagree c).1, (hagree c).2]
    unfold Cert.ReferenceIdeal.Read.val_main_v27 Cert.ReferenceIdeal.Read.val_main_v26
    rw [Cert.ReferenceIdeal.RefValue.ref_recon, feat_eq, mem_eq]
    rfl
  · rw [Cert.ReferenceIdeal.Read.val_main_v29_eq, (hagree c).1, (hagree c).2]
    unfold Cert.ReferenceIdeal.Read.val_main_v29
    rw [Cert.ReferenceIdeal.RefValue.ref_match, feat_eq, mem_eq]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
